-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 57
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64, .f32⟩
  | .hbm, ⟨56, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x1, .f32⟩
  | .local _ .vmem, ⟨11, _⟩ => ⟨S10000x1, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v21) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .i1⟩
  | .hbm, ⟨50, _⟩ => ⟨S_, .f32⟩
  | .hbm, ⟨51, _⟩ => ⟨S100000x64, .f32⟩
  | .hbm, ⟨52, _⟩ => ⟨S100000x64, .i1⟩
  | .hbm, ⟨53, _⟩ => ⟨S_, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .i1⟩
  | .hbm, ⟨85, _⟩ => ⟨S_, .f32⟩
  | .hbm, ⟨86, _⟩ => ⟨S100000x64, .f32⟩
  | .hbm, ⟨87, _⟩ => ⟨S100000x64, .i1⟩
  | .hbm, ⟨88, _⟩ => ⟨S_, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_cst_1 : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_v4 : Ref sig .tc := ⟨.hbm, 56, rfl⟩
abbrev main_call1_v5 : Ref sig .tc := ⟨.hbm, 57, rfl⟩
abbrev main_call1_cst_2 : Ref sig .tc := ⟨.hbm, 58, rfl⟩
abbrev main_call1_v6 : Ref sig .tc := ⟨.hbm, 59, rfl⟩
abbrev main_call1_v7 : Ref sig .tc := ⟨.hbm, 60, rfl⟩
abbrev main_v29 : Ref sig .tc := ⟨.hbm, 61, rfl⟩
abbrev main_c_7 : Ref sig .tc := ⟨.hbm, 62, rfl⟩
abbrev main_v30 : Ref sig .tc := ⟨.hbm, 63, rfl⟩
abbrev main_v31 : Ref sig .tc := ⟨.hbm, 64, rfl⟩
abbrev main_c_8 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_9 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_call2_cst_1 : Ref sig .tc := ⟨.hbm, 88, rfl⟩
abbrev main_call2_call0_v0 : Ref sig .tc := ⟨.hbm, 89, rfl⟩
abbrev main_call2_call0_v1 : Ref sig .tc := ⟨.hbm, 90, rfl⟩
abbrev main_call2_v4 : Ref sig .tc := ⟨.hbm, 91, rfl⟩
abbrev main_call2_v5 : Ref sig .tc := ⟨.hbm, 92, rfl⟩
abbrev main_call2_cst_2 : Ref sig .tc := ⟨.hbm, 93, rfl⟩
abbrev main_call2_v6 : Ref sig .tc := ⟨.hbm, 94, rfl⟩
abbrev main_call2_v7 : Ref sig .tc := ⟨.hbm, 95, rfl⟩
abbrev main_v47 : Ref sig .tc := ⟨.hbm, 96, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its result buffer read.

  The program is a chain of host stretches and two pallas calls. Every weakly fair execution terminates without a fault,
  and in the final state each unscoped buffer holds what the chain of boundary contents W0 … W6 gives it: a host stretch
  applies its operations to the contents before it, a pallas call replaces its output array by what its write-backs leave
  and keeps every other buffer. The argument arrays end as launched, and the result buffer ends at W6's value there.
-/
import proofs.«124720_j64725157151108_2_alg».proof.Proof.Gen.KernelIdeal.Frame
import Idealize.ShloMosaic.PureOps.Ideal

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution terminates, nothing faulting; the result buffer ends at the last boundary's contents and
    the seven argument arrays end as launched. -/
theorem run_last : θ_run (defs (F := Ideal)) (onTc (τ := τ) (main (F := Ideal))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.KerRun

end
-- ==== Proof.DenseSpec.lean ====
/-
  One layer of the graph network, as a function on the extended reals.

  A layer takes the summed neighbour features A : [100000, 64], the reciprocal in-degree inv : [100000, 1] (a column),
  a weight matrix W : [64, 64] and a bias b : [64], and returns at node p and output feature f

      elu ( Σ_k (A[p, k] · inv[p, 0]) · W[f, k]  +  b[f] ),        elu y = y for y > 0, e^y − 1 otherwise.

  The product is with the transpose of W: the contraction runs over W's second coordinate. Nothing here needs the entries to
  be finite: the two programs compute this same expression term by term, so no law of the reals beyond 1 · z = z is used.

  ELU is met in two spellings. One selects between y and e^y − 1 on the test y > 0. The other computes e^z − 1 at the guarded
  argument z = (0 if y > 0, else y), multiplies by the constant one, and selects between y and that on the same test; where
  the test fails z is y, and where it holds the guarded branch is not taken. Both are elu y.
-/
import Idealize.ShloMosaic.PureOps.Ideal
import Idealize.ShloMosaic.Lib.ValueIdx
import Idealize.ShloMosaic.Lib.IdealHost

noncomputable section

open scoped BigOperators

namespace Cert.GcnSpec

open Idealize.ShloMosaic Idealize.ShloMosaic.ValueIdx

/-- ELU on the extended reals: y when y is positive, e^y − 1 otherwise. -/
def elu (y : EReal) : EReal := if 0 < y then y else Ideal.exp y - 1

/-- A select on the comparison "y greater than c" takes its first branch exactly when c < y. -/
theorem select_ogt (y c : EReal) {α : Type} (a b : α) :
    Scalar.select (Ideal.cmp .ogt y c) a b = if c < y then a else b := by
  unfold Scalar.select Ideal.cmp
  by_cases h : c < y <;> simp [h]

/-- The direct spelling: select (y > 0) y (e^y − 1), the zero and the one given by their f32 words. -/
theorem elu_direct (y : EReal) :
    Scalar.select (Ideal.cmp .ogt y (Ideal.ofBits .f32 0x00000000#32)) y (Ideal.exp y - Ideal.ofBits .f32 0x3F800000#32)
      = elu y := by
  rw [select_ogt, Ideal.ofBits_zero_f32, Ideal.ofBits_one_f32]
  rfl

/-- The guarded spelling: select (y > 0) y (1 · (e^z − 1)) with z = select (y > 0) 0 y. -/
theorem elu_guarded (y : EReal) :
    Scalar.select (Ideal.cmp .ogt y (Ideal.ofBits .f32 0x00000000#32)) y
        (Ideal.ofBits .f32 0x3F800000#32
          * (Ideal.exp (Scalar.select (Ideal.cmp .ogt y (Ideal.ofBits .f32 0x00000000#32))
              (Ideal.ofBits .f32 0x00000000#32) y) - 1))
      = elu y := by
  rw [select_ogt, select_ogt, Ideal.ofBits_zero_f32, Ideal.ofBits_one_f32, one_mul]
  unfold elu
  by_cases h : (0 : EReal) < y
  · rw [if_pos h, if_pos h]
  · rw [if_neg h, if_neg h, if_neg h]

/-- The layer at node p and output feature f. -/
def denseAt (A : (⟨2, ![100000, 64]⟩ : Shape).Idx → EReal) (inv : (⟨2, ![100000, 1]⟩ : Shape).Idx → EReal)
    (W : (⟨2, ![64, 64]⟩ : Shape).Idx → EReal) (b : (⟨1, ![64]⟩ : Shape).Idx → EReal) (p : Fin 100000) (f : Fin 64) : EReal :=
  elu ((∑ k : Fin 64, (A (ix2 p k) * inv (ix2 p (0 : Fin 1))) * W (ix2 f k)) + b (ix1 f))

/-- The layer as one function on [100000, 64]. -/
def dense (A : (⟨2, ![100000, 64]⟩ : Shape).Idx → EReal) (inv : (⟨2, ![100000, 1]⟩ : Shape).Idx → EReal)
    (W : (⟨2, ![64, 64]⟩ : Shape).Idx → EReal) (b : (⟨1, ![64]⟩ : Shape).Idx → EReal) :
    (⟨2, ![100000, 64]⟩ : Shape).Idx → EReal :=
  fun i => denseAt A inv W b (i 0) (i 1)

theorem dense_apply (A : (⟨2, ![100000, 64]⟩ : Shape).Idx → EReal) (inv : (⟨2, ![100000, 1]⟩ : Shape).Idx → EReal)
    (W : (⟨2, ![64, 64]⟩ : Shape).Idx → EReal) (b : (⟨1, ![64]⟩ : Shape).Idx → EReal) (p : Fin 100000) (f : Fin 64) :
    dense A inv W b (ix2 p f) = denseAt A inv W b p f := rfl

end Cert.GcnSpec

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«124720_j64725157151108_2_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.KernelPayload.lean ====
/-
  What the kernel body stores, read at one entry of its block.

  The body loads a block of 10000 rows of summed neighbour features x0 : [10000, 64], the matching rows of the reciprocal
  in-degree column x1 : [10000, 1], the whole weight matrix x2 : [64, 64] and the bias as a one-row matrix x3 : [1, 64]. It
  scales each row of x0 by its in-degree reciprocal, multiplies by the transpose of x2 on the matrix unit starting from zero,
  adds the bias row to every row, and applies ELU spelled as a select between y and e^y − 1. On the extended reals the
  changes of float format are the identity and the matrix unit's result is the plain sum over the contracted coordinate, so
  the entry at row p and feature f is

      elu ( Σ_k (x0[p, k] · x1[p, 0]) · x2[f, k]  +  x3[0, f] ).

  Both pallas calls of the program run this same body, so the second call's stored value is the first's.
-/
import proofs.«124720_j64725157151108_2_alg».proof.Proof.Gen.KernelIdeal.Skeleton
import Idealize.ShloMosaic.Lib.ValueLayout
import Idealize.ShloMosaic.Lib.Pipeline.Value
import proofs.«124720_j64725157151108_2_alg».proof.Proof.DenseSpec
import proofs.«124720_j64725157151108_2_alg».proof.Proof.LibDotInnerHost
import proofs.«124720_j64725157151108_2_alg».proof.Proof.LibKeepdimsLayout

noncomputable section

open scoped BigOperators

namespace Cert.KernelIdeal.DenseBody

open Cert.KernelIdeal Cert.KernelIdeal.Gen Idealize.ShloMosaic Idealize.ShloMosaic.ValueIdx

/-- The body's dimension numbers say rows by columns: the left operand's second axis against the right operand's first. -/
theorem dot_plain : DotInner.Plain dot_S10000x64_S64x64_S10000x64_1_0_0_1_n_n :=
  plain_record dot_S10000x64_S64x64_S10000x64_1_0_0_1_n_n, S10000x64, S64x64

/-- The value before the activation: the scaled rows times the transposed weights, plus the bias row. -/
def affine (x0 : Vec Ideal S10000x64 .f32) (x1 : Vec Ideal S10000x1 .f32) (x2 : Vec Ideal S64x64 .f32)
    (x3 : Vec Ideal S1x64 .f32) : FVec Ideal S10000x64 .f32 :=
  addf
    (matmul dot_S10000x64_S64x64_S10000x64_1_0_0_1_n_n none
      (truncf .bf16
        (mulf (shapeCast S10000x64 x0 shapeCasts_S10000x64_S10000x64)
          (broadcastTo S10000x64 (shapeCast S10000x1 x1 shapeCasts_S10000x1_S10000x1) broadcasts_S10000x1_S10000x64))
        bitsLt_bf16_f32)
      (transpose S64x64 [1, 0] (truncf .bf16 x2 bitsLt_bf16_f32) transposes_S64x64_p1_0_S64x64)
      (constant S10000x64 .f32 0x00000000#32))
    (broadcastTo S10000x64 (shapeCast S1x64 x3 shapeCasts_S1x64_S1x64) broadcasts_S1x64_S10000x64)

/-- At row p and feature f it is Σ_k (x0[p,k] · x1[p,0]) · x2[f,k] + x3[0,f]. -/
theorem affine_apply (x0 : Vec Ideal S10000x64 .f32) (x1 : Vec Ideal S10000x1 .f32) (x2 : Vec Ideal S64x64 .f32)
    (x3 : Vec Ideal S1x64 .f32) (p : Fin 10000) (f : Fin 64) :
    affine x0 x1 x2 x3 (ix2 p f)
      = (∑ k : Fin 64, (x0 (ix2 p k) * x1 (ix2 p (0 : Fin 1))) * x2 (ix2 f k)) + x3 (ix2 (0 : Fin 1) f) := by
  unfold affine
  rw [addf_apply]
  refine congrArg₂ (· + ·) ?_ ?_
  · refine (dot_plain.matmul_zero none _ _ p f).trans (Finset.sum_congr rfl fun k _ => ?_)
    rw [truncf_apply, mulf_apply, shapeCast_self, shapeCast_self, Cert.LayoutKeepdims.broadcastTo_a1_ab_apply,
      transpose_ix2_apply, truncf_apply]
  · rw [broadcastTo_1b_ab_apply, shapeCast_self]

/-- THE STORED VALUE at row p and feature f of the block. -/
theorem pay_apply (x0 : Vec Ideal S10000x64 .f32) (x1 : Vec Ideal S10000x1 .f32) (x2 : Vec Ideal S64x64 .f32)
    (x3 : Vec Ideal S1x64 .f32) (p : Fin 10000) (f : Fin 64) :
    k0_pay1 (F := Ideal) x0 x1 x2 x3 (ix2 p f)
      = Cert.GcnSpec.elu ((∑ k : Fin 64, (x0 (ix2 p k) * x1 (ix2 p (0 : Fin 1))) * x2 (ix2 f k)) + x3 (ix2 (0 : Fin 1) f)) := by
  have h : k0_pay1 (F := Ideal) x0 x1 x2 x3 (ix2 p f)
      = Scalar.select (Ideal.cmp .ogt (affine x0 x1 x2 x3 (ix2 p f)) (Ideal.ofBits .f32 0x00000000#32))
          (affine x0 x1 x2 x3 (ix2 p f))
          (Ideal.exp (affine x0 x1 x2 x3 (ix2 p f)) - Ideal.ofBits .f32 0x3F800000#32) := rfl
  rw [h, affine_apply, Cert.GcnSpec.elu_direct]

/-- The second pallas call stores the same function of its loads. -/
theorem pay1_eq_pay0 : @k1_pay1 Ideal _ = @k0_pay1 Ideal _ := rfl

end Cert.KernelIdeal.DenseBody

end
-- ==== Proof.KernelBlocks.lean ====
/-
  From blocks to the array: what each pallas call leaves in its output array.

  The call's grid has ten points. Point t reads rows 10000·t … 10000·t + 9999 of the summed-feature array and of the
  reciprocal in-degree column, the whole weight matrix and the whole bias row, and writes the body's result to the same
  rows of the output. The body's result at row p, feature f of its block is the layer's value computed from the loaded
  blocks; because the loaded blocks are the arrays read at row 10000·t + p, that is the layer of the WHOLE arrays at row
  10000·t + p. The ten row blocks tile the output, so after the call the output array is the layer of the arrays the call
  was entered with, at every index. The argument holds for any contents V the call is entered with; both calls use it.
-/
import proofs.«124720_j64725157151108_2_alg».proof.Proof.Gen.KernelIdeal.Frame
import Idealize.ShloMosaic.Lib.Pipeline.Value
import proofs.«124720_j64725157151108_2_alg».proof.Proof.KernelPayload

set_option maxRecDepth 16384

noncomputable section

open scoped BigOperators

namespace Cert.KernelIdeal.DenseBlocks

open Cert.KernelIdeal Cert.KernelIdeal.Gen Cert.KernelIdeal.DenseBody Idealize.ShloMosaic Idealize.ShloMosaic.ValueIdx
open Idealize.ShloMosaic.TcCoe Idealize.SL.Sem
open Idealize.ShloMosaic.Pipeline (Dat Cfg Window)

theorem hz : (![0, 0] : Fin 2 → Nat) = fun _ => 0 := funext fun a => by fin_cases a <;> rfl

/-- The layer with the bias given as a one-row matrix, as the pallas call takes it: row 0 of brow is the bias vector. -/
def layerOf (A : S100000x64.Idx → EReal) (inv : S100000x1.Idx → EReal) (W : S64x64.Idx → EReal) (brow : S1x64.Idx → EReal) :
    S100000x64.Idx → EReal :=
  Cert.GcnSpec.dense A inv W (fun i => brow (ix2 (0 : Fin 1) (i 0)))

/-- One entry of one block: if the loaded blocks agree with the arrays at row P (the features and the in-degree entry of
    that row, the weights' row f, the bias entry f), the body's stored value at (p, f) is the layer at (P, f). -/
theorem block_entry (A : S100000x64.Idx → EReal) (inv : S100000x1.Idx → EReal) (W : S64x64.Idx → EReal) (brow : S1x64.Idx → EReal)
    (x0 : Vec Ideal S10000x64 .f32) (x1 : Vec Ideal S10000x1 .f32) (x2 : Vec Ideal S64x64 .f32) (x3 : Vec Ideal S1x64 .f32)
    (p : Fin 10000) (f : Fin 64) (P : Fin 100000)
    (h0 : ∀ k : Fin 64, x0 (ix2 p k) = A (ix2 P k))
    (h1 : x1 (ix2 p (0 : Fin 1)) = inv (ix2 P (0 : Fin 1)))
    (h2 : ∀ k : Fin 64, x2 (ix2 f k) = W (ix2 f k))
    (h3 : x3 (ix2 (0 : Fin 1) f) = brow (ix2 (0 : Fin 1) f)) :
    k0_pay1 (F := Ideal) x0 x1 x2 x3 (ix2 p f) = layerOf A inv W brow (ix2 P f) := by
  rw [pay_apply, h1, h3]
  simp only [h0, h2]
  rfl

/-! ## Pallas call 0: its output array after the call, from the arrays it was entered with -/

section Call0

variable (V : (c : Dev nD) → (b : Ref sig .tc) → Buf (Elt Ideal) ((c : Thread nD τ).loc b))

/-- The printed block index maps over the ten grid points: point t takes rows 10000·t … of the feature array, of the
    in-degree column and of the output; the weights and the bias row are one block, the same at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 10 :=
  (by decide +kernel : ∀ t : Fin grid0.N, _)

/-- Every one of the ten row blocks is some point's. -/
theorem idx_onto0 : ∀ q : Fin 10, ∃ t : Fin cfg0.N, win0_4.index t = ![q.val, 0] :=
  (by decide +kernel : ∀ q : Fin 10, ∃ t : Fin grid0.N, win0_4.index t = ![q.val, 0])

/-- WHAT POINT t WRITES BACK is block t of the layer of the arrays the call was entered with. -/
theorem flushed0_eq (c : Dev nD) (t : Fin cfg0.N) :
    (dat0 V c).flushed 4 t = ((cfg0.win 4).blk t).view.read (Elt Ideal)
      (layerOf (V c main_v21) (V c main_v11) (V c main_arg3) (V c main_v22)) := by
  show (cfg0.win 4).cut (grid0.coords t) ((dat0 V c).after 4 t) = _
  rw [after0_4]
  unfold out0_4
  rw [View.canon_unit_zero hz]
  simp only [View.ld_unit_zero (S := S10000x64) hz, View.ld_unit_zero (S := S10000x1) hz,
    View.ld_unit_zero (S := S64x64) hz, View.ld_unit_zero (S := S1x64) hz]
  obtain ⟨e00, e01, e10, e11, e20, e21, e30, e31, e40, e41, ht⟩ := idx_facts0 t
  refine funext fun (j : S10000x64.Idx) => ?_
  obtain ⟨p, f, rfl⟩ : ∃ (p : Fin 10000) (f : Fin 64), j = ix2 p f := ⟨j 0, j 1, eq_ix2 j⟩
  have hp : p.val < 10000 := p.isLt
  have hf : f.val < 64 := f.isLt
  refine (block_entry (V c main_v21) (V c main_v11) (V c main_arg3) (V c main_v22)
    (iblk0 V c 0 t) (iblk0 V c 1 t) (iblk0 V c 2 t) (iblk0 V c 3 t) p f ⟨t.val * 10000 + p.val, by omega⟩
    (fun k => ?_) ?_ (fun k => ?_) ?_).trans ?_
  · have hk : k.val < 64 := k.isLt
    show V c main_v21 (((cfg0.win 0).blk t).view.emb (ix2 p k)) = V c main_v21 (ix2 ⟨t.val * 10000 + p.val, by omega⟩ k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  · show V c main_v11 (((cfg0.win 1).blk t).view.emb (ix2 p (0 : Fin 1))) = V c main_v11 (ix2 ⟨t.val * 10000 + p.val, by omega⟩ (0 : Fin 1))
    refine congrArg _ (funext fun a => Fin.ext ?_)
    match a with
    | ⟨0, _⟩ => show win0_1.index t (0 : Fin 2) * 10000 + 1 * p.val = t.val * 10000 + p.val; omega
    | ⟨1, _⟩ => show win0_1.index t (1 : Fin 2) * 1 + 1 * 0 = 0; omega
  · have hk : k.val < 64 := k.isLt
    show V c main_arg3 (((cfg0.win 2).blk t).view.emb (ix2 f k)) = V c main_arg3 (ix2 f k)
    refine congrArg _ (funext fun a => Fin.ext ?_)
    match a with
    | ⟨0, _⟩ => show win0_2.index t (0 : Fin 2) * 64 + 1 * f.val = f.val; omega
    | ⟨1, _⟩ => show win0_2.index t (1 : Fin 2) * 64 + 1 * k.val = k.val; omega
  · show V c main_v22 (((cfg0.win 3).blk t).view.emb (ix2 (0 : Fin 1) f)) = V c main_v22 (ix2 (0 : Fin 1) f)
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * f.val = f.val; omega
  · show layerOf (V c main_v21) (V c main_v11) (V c main_arg3) (V c main_v22) (ix2 ⟨t.val * 10000 + p.val, by omega⟩ f)
      = layerOf (V c main_v21) (V c main_v11) (V c main_arg3) (V c main_v22) (((cfg0.win 4).blk t).view.emb (ix2 p f))
    refine congrArg _ (funext fun a => Fin.ext ?_)
    match a with
    | ⟨0, _⟩ => show t.val * 10000 + p.val = win0_4.index t (0 : Fin 2) * 10000 + 1 * p.val; omega
    | ⟨1, _⟩ => show f.val = win0_4.index t (1 : Fin 2) * 64 + 1 * f.val; omega

/-- An index of the output array is in point t's block iff each coordinate is in the block's range on its axis. -/
theorem mem_blk0 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v23).slice (win0_4.rect t)).set ↔ _
  rw [View.set_slice_whole, Rect.mem_set_unit]
  exact Iff.rfl

/-- The ten row blocks cover the output array: row r is in block r / 10000. -/
theorem cover0 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto0 ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

/-- THE OUTPUT ARRAY after pallas call 0: the layer of the arrays the call was entered with. -/
theorem final0 (c : Dev nD) :
    (dat0 V c).arrAt 4 cfg0.N = layerOf (V c main_v21) (V c main_v11) (V c main_arg3) (V c main_v22) :=
  (dat0 V c).arrAt_eq_of_cover 4 _ (fun t _ => flushed0_eq V c t) cover0

end Call0

/-! ## Pallas call 1: its output array after the call, from the arrays it was entered with -/

section Call1

variable (V : (c : Dev nD) → (b : Ref sig .tc) → Buf (Elt Ideal) ((c : Thread nD τ).loc b))

/-- The printed block index maps over the ten grid points: point t takes rows 10000·t … of the feature array, of the
    in-degree column and of the output; the weights and the bias row are one block, the same at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

/-- Every one of the ten row blocks is some point's. -/
theorem idx_onto1 : ∀ q : Fin 10, ∃ t : Fin cfg1.N, win1_4.index t = ![q.val, 0] :=
  (by decide +kernel : ∀ q : Fin 10, ∃ t : Fin grid1.N, win1_4.index t = ![q.val, 0])

/-- WHAT POINT t WRITES BACK is block t of the layer of the arrays the call was entered with. -/
theorem flushed1_eq (c : Dev nD) (t : Fin cfg1.N) :
    (dat1 V c).flushed 4 t = ((cfg1.win 4).blk t).view.read (Elt Ideal)
      (layerOf (V c main_v33) (V c main_v11) (V c main_arg5) (V c main_v34)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz,
    View.ld_unit_zero (S := S64x64) hz, View.ld_unit_zero (S := S1x64) hz]
  obtain ⟨e00, e01, e10, e11, e20, e21, e30, e31, e40, e41, ht⟩ := idx_facts1 t
  refine funext fun (j : S10000x64.Idx) => ?_
  obtain ⟨p, f, rfl⟩ : ∃ (p : Fin 10000) (f : Fin 64), j = ix2 p f := ⟨j 0, j 1, eq_ix2 j⟩
  have hp : p.val < 10000 := p.isLt
  have hf : f.val < 64 := f.isLt
  rw [pay1_eq_pay0]
  refine (block_entry (V c main_v33) (V c main_v11) (V c main_arg5) (V c main_v34)
    (iblk1 V c 0 t) (iblk1 V c 1 t) (iblk1 V c 2 t) (iblk1 V c 3 t) p f ⟨t.val * 10000 + p.val, by omega⟩
    (fun k => ?_) ?_ (fun k => ?_) ?_).trans ?_
  · have hk : k.val < 64 := k.isLt
    show V c main_v33 (((cfg1.win 0).blk t).view.emb (ix2 p k)) = V c main_v33 (ix2 ⟨t.val * 10000 + p.val, by omega⟩ k)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · show V c main_v11 (((cfg1.win 1).blk t).view.emb (ix2 p (0 : Fin 1))) = V c main_v11 (ix2 ⟨t.val * 10000 + p.val, by omega⟩ (0 : Fin 1))
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 1 + 1 * 0 = 0; omega
  · have hk : k.val < 64 := k.isLt
    show V c main_arg5 (((cfg1.win 2).blk t).view.emb (ix2 f k)) = V c main_arg5 (ix2 f k)
    refine congrArg _ (funext fun a => Fin.ext ?_)
    match a with
    | ⟨0, _⟩ => show win1_2.index t (0 : Fin 2) * 64 + 1 * f.val = f.val; omega
    | ⟨1, _⟩ => show win1_2.index t (1 : Fin 2) * 64 + 1 * k.val = k.val; omega
  · show V c main_v34 (((cfg1.win 3).blk t).view.emb (ix2 (0 : Fin 1) f)) = V c main_v34 (ix2 (0 : Fin 1) f)
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * f.val = f.val; omega
  · show layerOf (V c main_v33) (V c main_v11) (V c main_arg5) (V c main_v34) (ix2 ⟨t.val * 10000 + p.val, by omega⟩ f)
      = layerOf (V c main_v33) (V c main_v11) (V c main_arg5) (V c main_v34) (((cfg1.win 4).blk t).view.emb (ix2 p f))
    refine congrArg _ (funext fun a => Fin.ext ?_)
    match a with
    | ⟨0, _⟩ => show t.val * 10000 + p.val = win1_4.index t (0 : Fin 2) * 10000 + 1 * p.val; omega
    | ⟨1, _⟩ => show f.val = win1_4.index t (1 : Fin 2) * 64 + 1 * f.val; omega

/-- An index of the output array is in point t's block iff each coordinate is in the block's range on its axis. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v35).slice (win1_4.rect t)).set ↔ _
  rw [View.set_slice_whole, Rect.mem_set_unit]
  exact Iff.rfl

/-- The ten row blocks cover the output array: row r is in block r / 10000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto1 ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- THE OUTPUT ARRAY after pallas call 1: the layer of the arrays the call was entered with. -/
theorem final1 (c : Dev nD) :
    (dat1 V c).arrAt 4 cfg1.N = layerOf (V c main_v33) (V c main_v11) (V c main_arg5) (V c main_v34) :=
  (dat1 V c).arrAt_eq_of_cover 4 _ (fun t _ => flushed1_eq V c t) cover1

end Call1

end Cert.KernelIdeal.DenseBlocks

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.KernelValue.lean ====
/-
  What the kernel program's result buffer holds, as a function of the argument arrays.

  Three host chains occur in the program, each a fixed composition of host operations:
    * the reciprocal in-degree column: deg = the scatter-add of ones at the destination indices; the column holds
      1 / max(deg, 1) where deg > 0 and 0 elsewhere;
    * the neighbour sum of a feature array x: the rows of x gathered at the source indices (a negative index wrapped by the
      number of nodes) and scatter-added at the destination indices into zeros;
    * the bias vector recast as a one-row matrix.
  They are named here and never opened: both programs apply the very same operations, so the certificate only needs that
  the same function is applied to equal arguments.

  The first pallas call is entered with the neighbour sum of h, the in-degree column, W1 and the bias row of b1, and leaves the
  layer of those in its output array. The second is entered with the neighbour sum of that output, the same column, W2 and
  the bias row of b2. A pallas call changes no array but its output, and no host operation writes an argument, so the
  contents each call is entered with are read back to the launch contents.
-/
import proofs.«124720_j64725157151108_2_alg».proof.Proof.KernelBlocks
import Idealize.ShloMosaic.Lib.StableHlo.Run
import proofs.«124720_j64725157151108_2_alg».proof.Proof.LibTypedRefs

set_option maxRecDepth 16384

noncomputable section

namespace Cert.KernelIdeal.KerValue

open Cert.KernelIdeal Cert.KernelIdeal.Gen Cert.KernelIdeal.DenseBlocks
open Idealize.ShloMosaic Idealize.ShloMosaic.TcCoe Idealize.SL.Sem Idealize.ShloMosaic.StableHlo

/-- The in-degree of every node: ones scatter-added at the destination indices. -/
def inDeg (dst : (⟨S1600000, .i32⟩ : BufTy).Contents (Elt Ideal)) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The reciprocal in-degree as a column: 1 / max(deg, 1) where deg > 0, else 0. -/
def invDeg (dst : (⟨S1600000, .i32⟩ : BufTy).Contents (Elt Ideal)) : FVec Ideal S100000x1 .f32 :=
  broadcastInDim S100000x1 ![0] bcast_S100000_S100000x1_0
    (select (cmpf .ogt (inDeg dst) (broadcastInDim S100000 ![] bcast_S_S100000 (constant (F := Ideal) S_ .f32 0x00000000#32)))
      (Host.divf (broadcastInDim S100000 ![] bcast_S_S100000 (constant (F := Ideal) S_ .f32 0x3F800000#32))
        (maximumf (inDeg dst) (broadcastInDim S100000 ![] bcast_S_S100000 (constant (F := Ideal) S_ .f32 0x3F800000#32))))
      (broadcastInDim S100000 ![] bcast_S_S100000 (id (constant (F := Ideal) S_ .f32 0x00000000#32))))

/-- The neighbour sum: rows of x gathered at the (wrapped) source indices, scatter-added at the destination indices. -/
def segSum (x : (⟨S100000x64, .f32⟩ : BufTy).Contents (Elt Ideal)) (src dst : (⟨S1600000, .i32⟩ : BufTy).Contents (Elt Ideal)) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The bias vector as a one-row matrix. -/
def biasRow (b : (⟨S64, .f32⟩ : BufTy).Contents (Elt Ideal)) : FVec Ideal S1x64 .f32 :=
  shapeCast S1x64 b shapeCasts_S64_S1x64

/-- THE RESULT as a function of the seven arguments: two layers, each over the neighbour sum of the layer before. -/
def result (h : (⟨S100000x64, .f32⟩ : BufTy).Contents (Elt Ideal)) (src dst : (⟨S1600000, .i32⟩ : BufTy).Contents (Elt Ideal))
    (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) :
    S100000x64.Idx → EReal :=
  layerOf (segSum (layerOf (segSum h src dst) (invDeg dst) W1 (biasRow b1)) src dst) (invDeg dst) W2 (biasRow b2)

/-! The select that picks the in-degree reciprocal is printed inside an outlined function, over references that carry their
    tensor type; at these literal references moving a value to the buffer's type and back changes nothing. -/

theorem toBuf_v10 (v : (⟨S100000, .f32⟩ : BufTy).Contents (Elt Ideal)) :
    (TRef.of main_v10 : TRef sig ⟨S100000, .f32⟩).toBuf v = v := rfl
theorem ofBuf_v5 (v : (⟨S100000, .i1⟩ : BufTy).Contents (Elt Ideal)) :
    (TRef.of main_v5 : TRef sig ⟨S100000, .i1⟩).ofBuf v = v := rfl
theorem ofBuf_v9 (v : (⟨S100000, .f32⟩ : BufTy).Contents (Elt Ideal)) :
    (TRef.of main_v9 : TRef sig ⟨S100000, .f32⟩).ofBuf v = v := rfl
theorem ofBuf_cst4 (v : (⟨S_, .f32⟩ : BufTy).Contents (Elt Ideal)) :
    (TRef.of main_cst_4 : TRef sig ⟨S_, .f32⟩).ofBuf v = v := rfl

variable (m : (ℓ : Loc nD τ sig) → Buf (Elt Ideal) ℓ) (ρ : Dev nD → PrngReg)

/-! ## What the first pallas call is entered with -/

theorem entry0_feat (c : Dev nD) : V3 m ρ c main_v21 = segSum (m ((c : Thread nD τ).loc main_arg0)) (m ((c : Thread nD τ).loc main_arg1)) (m ((c : Thread nD τ).loc main_arg2)) := by
  show StableHlo.after hostOps0_2 (StableHlo.after hostOps0_1 (StableHlo.after hostOps0 (W0 m ρ c))) (Proc.devRef .tc main_v21) = _
  after_results_simp
  rfl

theorem entry0_inv (c : Dev nD) : V3 m ρ c main_v11 = invDeg (m ((c : Thread nD τ).loc main_arg2)) := by
  show StableHlo.after hostOps0_2 (StableHlo.after hostOps0_1 (StableHlo.after hostOps0 (W0 m ρ c))) (Proc.devRef .tc main_v11) = _
  after_results_simp
  simp only [StableHlo.TRef.ofBuf_toBuf]
  rw [toBuf_v10, ofBuf_v5, ofBuf_v9, ofBuf_cst4]
  rfl

theorem entry0_w (c : Dev nD) : V3 m ρ c main_arg3 = (m ((c : Thread nD τ).loc main_arg3)) := by
  show StableHlo.after hostOps0_2 (StableHlo.after hostOps0_1 (StableHlo.after hostOps0 (W0 m ρ c))) (Proc.devRef .tc main_arg3) = _
  after_results_simp

theorem entry0_bias (c : Dev nD) : V3 m ρ c main_v22 = biasRow (m ((c : Thread nD τ).loc main_arg4)) := by
  show StableHlo.after hostOps0_2 (StableHlo.after hostOps0_1 (StableHlo.after hostOps0 (W0 m ρ c))) (Proc.devRef .tc main_v22) = _
  after_results_simp
  rfl

/-! ## What the first pallas call leaves, and what it keeps -/

theorem exit0_out (c : Dev nD) :
    W4 m ρ c (Proc.devRef .tc main_v23)
      = layerOf (segSum (m ((c : Thread nD τ).loc main_arg0)) (m ((c : Thread nD τ).loc main_arg1)) (m ((c : Thread nD τ).loc main_arg2))) (invDeg (m ((c : Thread nD τ).loc main_arg2)))
          (m ((c : Thread nD τ).loc main_arg3)) (biasRow (m ((c : Thread nD τ).loc main_arg4))) := by
  refine (W4_arr m ρ c 4).trans ((final0 (V3 m ρ) c).trans ?_)
  rw [entry0_feat, entry0_inv, entry0_w, entry0_bias]

theorem exit0_inv (c : Dev nD) : W4 m ρ c (Proc.devRef .tc main_v11) = invDeg (m ((c : Thread nD τ).loc main_arg2)) :=
  (W4_arr m ρ c 1).trans (((dat0 (V3 m ρ) c).arrAt_in 1 rfl _).trans ((A_eq0 (V3 m ρ) c 1).trans (entry0_inv m ρ c)))

theorem exit0_main_arg1 (c : Dev nD) : W4 m ρ c (Proc.devRef .tc main_arg1) = (m ((c : Thread nD τ).loc main_arg1)) := by
  refine (W4_of_ne m ρ c main_arg1 (by decide)).trans ?_
  show StableHlo.after hostOps0_2 (StableHlo.after hostOps0_1 (StableHlo.after hostOps0 (W0 m ρ c))) (Proc.devRef .tc main_arg1) = _
  after_results_simp

theorem exit0_main_arg2 (c : Dev nD) : W4 m ρ c (Proc.devRef .tc main_arg2) = (m ((c : Thread nD τ).loc main_arg2)) := by
  refine (W4_of_ne m ρ c main_arg2 (by decide)).trans ?_
  show StableHlo.after hostOps0_2 (StableHlo.after hostOps0_1 (StableHlo.after hostOps0 (W0 m ρ c))) (Proc.devRef .tc main_arg2) = _
  after_results_simp

theorem exit0_main_arg5 (c : Dev nD) : W4 m ρ c (Proc.devRef .tc main_arg5) = (m ((c : Thread nD τ).loc main_arg5)) := by
  refine (W4_of_ne m ρ c main_arg5 (by decide)).trans ?_
  show StableHlo.after hostOps0_2 (StableHlo.after hostOps0_1 (StableHlo.after hostOps0 (W0 m ρ c))) (Proc.devRef .tc main_arg5) = _
  after_results_simp

theorem exit0_main_arg6 (c : Dev nD) : W4 m ρ c (Proc.devRef .tc main_arg6) = (m ((c : Thread nD τ).loc main_arg6)) := by
  refine (W4_of_ne m ρ c main_arg6 (by decide)).trans ?_
  show StableHlo.after hostOps0_2 (StableHlo.after hostOps0_1 (StableHlo.after hostOps0 (W0 m ρ c))) (Proc.devRef .tc main_arg6) = _
  after_results_simp

/-! ## What the second pallas call is entered with -/

theorem entry1_feat (c : Dev nD) :
    V5 m ρ c main_v33 = segSum (W4 m ρ c (Proc.devRef .tc main_v23)) (W4 m ρ c (Proc.devRef .tc main_arg1)) (W4 m ρ c (Proc.devRef .tc main_arg2)) := by
  show StableHlo.after hostOps1 (W4 m ρ c) (Proc.devRef .tc main_v33) = _
  after_results_simp
  rfl

theorem entry1_inv (c : Dev nD) : V5 m ρ c main_v11 = W4 m ρ c (Proc.devRef .tc main_v11) := by
  show StableHlo.after hostOps1 (W4 m ρ c) (Proc.devRef .tc main_v11) = _
  after_results_simp

theorem entry1_w (c : Dev nD) : V5 m ρ c main_arg5 = W4 m ρ c (Proc.devRef .tc main_arg5) := by
  show StableHlo.after hostOps1 (W4 m ρ c) (Proc.devRef .tc main_arg5) = _
  after_results_simp

theorem entry1_bias (c : Dev nD) : V5 m ρ c main_v34 = biasRow (W4 m ρ c (Proc.devRef .tc main_arg6)) := by
  show StableHlo.after hostOps1 (W4 m ρ c) (Proc.devRef .tc main_v34) = _
  after_results_simp
  rfl

/-! ## The result buffer at the end -/

/-- The result buffer's final contents: the two-layer function of the launch contents of the arguments. -/
theorem last_out (c : Dev nD) :
    W6 m ρ c (Proc.devRef .tc main_v35)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 4).trans ((final1 (V5 m ρ) c).trans ?_)
  rw [entry1_feat, entry1_inv, entry1_w, entry1_bias, exit0_out, exit0_inv, exit0_main_arg1, exit0_main_arg2,
    exit0_main_arg5, exit0_main_arg6]
  rfl

end Cert.KernelIdeal.KerValue

end
-- ==== Proof.ReferenceRun.lean ====
/-
  The reference's @main run to its end.

  @main is a straight line: its own operations, and at each of its three calls the callee's operations over that call's
  buffers (one call selects the reciprocal degree against zero; two calls apply ELU, each through two selects of its own).
  Listed in order the line has ninety operations, and a straight line run from any memory leaves in each buffer the
  composition of the operations that lead to it. Three compositions recur and are named:

    invDeg dst            the column of reciprocal in-degrees: deg = the scatter-add of ones at dst,
                          where(deg > 0, 1 / max(deg, 1), 0), as a [100000, 1] column;
    segSum x src dst      the rows of x gathered at src (a negative index wrapped by +100000) and scatter-added at dst;
    layer A inv W b       elu((A * inv) @ W.T + b), the ELU in its guarded spelling.

  The result buffer ends at  layer (segSum (layer (segSum h src dst) inv W1 b1) src dst) inv W2 b2  with inv = invDeg dst,
  and the seven arguments end as they started.
-/
import proofs.«124720_j64725157151108_2_alg».proof.Proof.Gen.ReferenceIdeal
import Idealize.ShloMosaic.Lib.StableHlo.Run
import Idealize.ShloMosaic.PureOps.Ideal
import proofs.«124720_j64725157151108_2_alg».proof.Proof.LibTypedRefs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's ninety operations in order, each call replaced by the callee's operations over the call's buffers. -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg2 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v6 (broadcastInDim S100000 ![] bcast_S_S100000 : (⟨S_, .f32⟩ : BufTy).Contents (Elt F) → (⟨S100000, .f32⟩ : BufTy).Contents (Elt F)),
    binary main_v3 main_v6 main_v7 (maximumf : (⟨S100000, .f32⟩ : BufTy).Contents (Elt F) → (⟨S100000, .f32⟩ : BufTy).Contents (Elt F) → (⟨S100000, .f32⟩ : BufTy).Contents (Elt F)),
    nullary main_cst_3 (constant S_ .f32 0x3F800000#32),
    unary main_cst_3 main_v8 (broadcastInDim S100000 ![] bcast_S_S100000 : (⟨S_, .f32⟩ : BufTy).Contents (Elt F) → (⟨S100000, .f32⟩ : BufTy).Contents (Elt F)),
    binary main_v8 main_v7 main_v9 (Host.divf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    TRef.unary (.of main_cst_4) main_call0.v0 id,
    TRef.unary main_call0.v0 main_call0.v1 (broadcastInDim S100000 ![] bcast_S_S100000),
    TRef.ternary (.of main_v5) (.of main_v9) main_call0.v1 main_call0.v2 select,
    unary main_v10 main_v11 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_arg1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v14 (broadcastInDim S1600000 ![] bcast_S_S1600000 : (⟨S_, .i32⟩ : BufTy).Contents (Elt F) → (⟨S1600000, .i32⟩ : BufTy).Contents (Elt F)),
    binary main_arg1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_arg1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg0 main_v17 main_v18 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v19 (broadcastInDim S100000x64 ![] bcast_S_S100000x64 : (⟨S_, .f32⟩ : BufTy).Contents (Elt F) → (⟨S100000x64, .f32⟩ : BufTy).Contents (Elt F)),
    unary main_arg2 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v11 main_v22 (broadcastInDim S100000x64 ![0, 1] bcast_S100000x1_S100000x64_0_1 : (⟨S100000x1, .f32⟩ : BufTy).Contents (Elt F) → (⟨S100000x64, .f32⟩ : BufTy).Contents (Elt F)),
    binary main_v21 main_v22 main_v23 (mulf : (⟨S100000x64, .f32⟩ : BufTy).Contents (Elt F) → (⟨S100000x64, .f32⟩ : BufTy).Contents (Elt F) → (⟨S100000x64, .f32⟩ : BufTy).Contents (Elt F)),
    unary main_arg3 main_v24 ((transpose S64x64 [1, 0] · transposes_S64x64_S64x64_1_0) : (⟨S64x64, .f32⟩ : BufTy).Contents (Elt F) → (⟨S64x64, .f32⟩ : BufTy).Contents (Elt F)),
    binary main_v23 main_v24 main_v25 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v25 main_v27 main_v28 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v28) main_call1.v0 main_call1.v1 (cmpf .ogt),
    TRef.nullary main_call1.cst_0 (constant S_ .f32 0x00000000#32),
    TRef.unary main_call1.cst_0 main_call1.v2 (broadcastInDim S100000x64 ![] bcast_S_S100000x64),
    TRef.binary (.of main_v28) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x64 ![] bcast_S_S100000x64),
    TRef.ternary main_call1.v3 main_call1.call0.v1 (.of main_v28) main_call1.call0.v2 select,
    TRef.unary main_call1.call0.v2 main_call1.v5 Host.expm1,
    TRef.nullary main_call1.cst_2 (constant S_ .f32 0x3F800000#32),
    TRef.unary main_call1.cst_2 main_call1.v6 (broadcastInDim S100000x64 ![] bcast_S_S100000x64),
    TRef.binary main_call1.v6 main_call1.v5 main_call1.v7 mulf,
    TRef.ternary main_call1.v1 (.of main_v28) main_call1.v7 main_call1.call1.v0 select,
    nullary main_c_7 (constantI S_ 32 0#32),
    unary main_c_7 main_v30 (broadcastInDim S1600000 ![] bcast_S_S1600000 : (⟨S_, .i32⟩ : BufTy).Contents (Elt F) → (⟨S1600000, .i32⟩ : BufTy).Contents (Elt F)),
    binary main_arg1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v32 (broadcastInDim S1600000 ![] bcast_S_S1600000 : (⟨S_, .i32⟩ : BufTy).Contents (Elt F) → (⟨S1600000, .i32⟩ : BufTy).Contents (Elt F)),
    binary main_arg1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_arg1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_9 (constant S_ .f32 0x00000000#32),
    unary main_cst_9 main_v37 (broadcastInDim S100000x64 ![] bcast_S_S100000x64 : (⟨S_, .f32⟩ : BufTy).Contents (Elt F) → (⟨S100000x64, .f32⟩ : BufTy).Contents (Elt F)),
    unary main_arg2 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v11 main_v40 (broadcastInDim S100000x64 ![0, 1] bcast_S100000x1_S100000x64_0_1 : (⟨S100000x1, .f32⟩ : BufTy).Contents (Elt F) → (⟨S100000x64, .f32⟩ : BufTy).Contents (Elt F)),
    binary main_v39 main_v40 main_v41 (mulf : (⟨S100000x64, .f32⟩ : BufTy).Contents (Elt F) → (⟨S100000x64, .f32⟩ : BufTy).Contents (Elt F) → (⟨S100000x64, .f32⟩ : BufTy).Contents (Elt F)),
    unary main_arg5 main_v42 ((transpose S64x64 [1, 0] · transposes_S64x64_S64x64_1_0) : (⟨S64x64, .f32⟩ : BufTy).Contents (Elt F) → (⟨S64x64, .f32⟩ : BufTy).Contents (Elt F)),
    binary main_v41 main_v42 main_v43 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v46) main_call2.v0 main_call2.v1 (cmpf .ogt),
    TRef.nullary main_call2.cst_0 (constant S_ .f32 0x00000000#32),
    TRef.unary main_call2.cst_0 main_call2.v2 (broadcastInDim S100000x64 ![] bcast_S_S100000x64),
    TRef.binary (.of main_v46) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x64 ![] bcast_S_S100000x64),
    TRef.ternary main_call2.v3 main_call2.call0.v1 (.of main_v46) main_call2.call0.v2 select,
    TRef.unary main_call2.call0.v2 main_call2.v5 Host.expm1,
    TRef.nullary main_call2.cst_2 (constant S_ .f32 0x3F800000#32),
    TRef.unary main_call2.cst_2 main_call2.v6 (broadcastInDim S100000x64 ![] bcast_S_S100000x64),
    TRef.binary main_call2.v6 main_call2.v5 main_call2.v7 mulf,
    TRef.ternary main_call2.v1 (.of main_v46) main_call2.v7 main_call2.call1.v0 select ]

-- ninety binds re-associated: the rewrite under the chain recurses once per statement
set_option maxRecDepth 4096 in
set_option maxHeartbeats 4000000 in
/-- @main is that straight line: the callees unfolded at their calls, both sides are one chain of steps once the
    sequencing is re-associated. -/
theorem main_eq (c : Dev nD) : main (F := F) c = seq ops := by
  simp only [main, main_part0, main_part1, fn_where.body, fn_where_0.body, fn_where_1.body, fn_elu.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- The in-degree of every node: ones scatter-added at the destination indices into zeros. -/
def inDeg (dst : (⟨S1600000, .i32⟩ : BufTy).Contents (Elt Ideal)) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The reciprocal in-degree as a column: where(deg > 0, 1 / max(deg, 1), 0), each node's entry placed in a [100000, 1]
    column. -/
def invDeg (dst : (⟨S1600000, .i32⟩ : BufTy).Contents (Elt Ideal)) : FVec Ideal S100000x1 .f32 :=
  broadcastInDim S100000x1 ![0] bcast_S100000_S100000x1_0
    (select (cmpf .ogt (inDeg dst) (broadcastInDim S100000 ![] bcast_S_S100000 (constant (F := Ideal) S_ .f32 0x00000000#32)))
      (Host.divf (broadcastInDim S100000 ![] bcast_S_S100000 (constant (F := Ideal) S_ .f32 0x3F800000#32))
        (maximumf (inDeg dst) (broadcastInDim S100000 ![] bcast_S_S100000 (constant (F := Ideal) S_ .f32 0x3F800000#32))))
      (broadcastInDim S100000 ![] bcast_S_S100000 (id (constant (F := Ideal) S_ .f32 0x00000000#32))))

/-- The neighbour sum: the rows of x gathered at src — a negative index first wrapped by adding 100000 — and
    scatter-added at dst into zeros. -/
def segSum (x : FVec Ideal S100000x64 .f32) (src dst : (⟨S1600000, .i32⟩ : BufTy).Contents (Elt Ideal)) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- A layer before its activation: (A * inv) @ W.T + b, the column inv broadcast along the rows of A, the bias b down the
    rows of the product. -/
def affine (A : FVec Ideal S100000x64 .f32) (inv : FVec Ideal S100000x1 .f32) (W : FVec Ideal S64x64 .f32)
    (b : FVec Ideal S64 .f32) : FVec Ideal S100000x64 .f32 :=
  addf
    (Host.dotGeneral dot_S100000x64_S64x64_S100000x64_1_0_0_1_n_n none
      (mulf A (broadcastInDim S100000x64 ![0, 1] bcast_S100000x1_S100000x64_0_1 inv))
      (transpose S64x64 [1, 0] W transposes_S64x64_S64x64_1_0))
    (broadcastInDim S100000x64 ![0, 1] bcast_S1x64_S100000x64_0_1 (broadcastInDim S1x64 ![1] bcast_S64_S1x64_1 b))

/-- ELU in its guarded spelling, entrywise: where(y > 0, y, 1 * expm1(where(y > 0, 0, y))). -/
def eluGuarded (y : FVec Ideal S100000x64 .f32) : FVec Ideal S100000x64 .f32 :=
  select (cmpf .ogt y (broadcastInDim S100000x64 ![] bcast_S_S100000x64 (constant (F := Ideal) S_ .f32 0x00000000#32))) y
    (mulf (broadcastInDim S100000x64 ![] bcast_S_S100000x64 (constant (F := Ideal) S_ .f32 0x3F800000#32))
      (Host.expm1
        (select (cmpf .ogt y (broadcastInDim S100000x64 ![] bcast_S_S100000x64 (constant (F := Ideal) S_ .f32 0x00000000#32)))
          (broadcastInDim S100000x64 ![] bcast_S_S100000x64 (id (constant (F := Ideal) S_ .f32 0x00000000#32))) y)))

/-- One layer: elu((A * inv) @ W.T + b). -/
def layer (A : FVec Ideal S100000x64 .f32) (inv : FVec Ideal S100000x1 .f32) (W : FVec Ideal S64x64 .f32)
    (b : FVec Ideal S64 .f32) : FVec Ideal S100000x64 .f32 :=
  eluGuarded (affine A inv W b)

/-! The calls' operations are stated over references that carry their tensor's type, and a value passes to and from the
    buffer's own type along the equation between the two. At these literal references the two types are the same, so the
    passage changes nothing; stated on a variable, that is a computation with nothing large in it. -/

theorem toBuf_v10 (v : (⟨S100000, .f32⟩ : BufTy).Contents (Elt Ideal)) : (TRef.of main_v10 : TRef sig ⟨S100000, .f32⟩).toBuf v = v := rfl
theorem ofBuf_v5 (v : (⟨S100000, .i1⟩ : BufTy).Contents (Elt Ideal)) : (TRef.of main_v5 : TRef sig ⟨S100000, .i1⟩).ofBuf v = v := rfl
theorem ofBuf_v9 (v : (⟨S100000, .f32⟩ : BufTy).Contents (Elt Ideal)) : (TRef.of main_v9 : TRef sig ⟨S100000, .f32⟩).ofBuf v = v := rfl
theorem ofBuf_cst4 (v : (⟨S_, .f32⟩ : BufTy).Contents (Elt Ideal)) : (TRef.of main_cst_4 : TRef sig ⟨S_, .f32⟩).ofBuf v = v := rfl
theorem ofBuf_v28 (v : (⟨S100000x64, .f32⟩ : BufTy).Contents (Elt Ideal)) : (TRef.of main_v28 : TRef sig ⟨S100000x64, .f32⟩).ofBuf v = v := rfl
theorem toBuf_v29 (v : (⟨S100000x64, .f32⟩ : BufTy).Contents (Elt Ideal)) : (TRef.of main_v29 : TRef sig ⟨S100000x64, .f32⟩).toBuf v = v := rfl
theorem ofBuf_v46 (v : (⟨S100000x64, .f32⟩ : BufTy).Contents (Elt Ideal)) : (TRef.of main_v46 : TRef sig ⟨S100000x64, .f32⟩).ofBuf v = v := rfl
theorem toBuf_v47 (v : (⟨S100000x64, .f32⟩ : BufTy).Contents (Elt Ideal)) : (TRef.of main_v47 : TRef sig ⟨S100000x64, .f32⟩).toBuf v = v := rfl

set_option maxRecDepth 8192 in
set_option maxHeartbeats 4000000 in
/-- What the result buffer holds after the line, from any contents V of the device's buffers: the fold computed at the
    result buffer, the passages through typed references removed, is the two layers over their neighbour sums. -/
theorem out_eq (V : Valuation τ sig (Elt Ideal)) :
    after ops V (main_v47 : DevRef τ sig)
      = layer (segSum (layer (segSum (V (main_arg0 : DevRef τ sig)) (V (main_arg1 : DevRef τ sig)) (V (main_arg2 : DevRef τ sig)))
            (invDeg (V (main_arg2 : DevRef τ sig))) (V (main_arg3 : DevRef τ sig)) (V (main_arg4 : DevRef τ sig)))
          (V (main_arg1 : DevRef τ sig)) (V (main_arg2 : DevRef τ sig)))
        (invDeg (V (main_arg2 : DevRef τ sig))) (V (main_arg5 : DevRef τ sig)) (V (main_arg6 : DevRef τ sig)) := by
  after_results_simp
  simp only [StableHlo.TRef.ofBuf_toBuf]
  simp only [toBuf_v10, ofBuf_v5, ofBuf_v9, ofBuf_cst4, ofBuf_v28, toBuf_v29, ofBuf_v46, toBuf_v47]
  rfl

set_option maxRecDepth 8192 in
theorem arg0_eq (V : Valuation τ sig (Elt Ideal)) :
    after ops V (main_arg0 : DevRef τ sig) = V (main_arg0 : DevRef τ sig) := by
  after_results_simp

set_option maxRecDepth 8192 in
theorem arg1_eq (V : Valuation τ sig (Elt Ideal)) :
    after ops V (main_arg1 : DevRef τ sig) = V (main_arg1 : DevRef τ sig) := by
  after_results_simp

set_option maxRecDepth 8192 in
theorem arg2_eq (V : Valuation τ sig (Elt Ideal)) :
    after ops V (main_arg2 : DevRef τ sig) = V (main_arg2 : DevRef τ sig) := by
  after_results_simp

set_option maxRecDepth 8192 in
theorem arg3_eq (V : Valuation τ sig (Elt Ideal)) :
    after ops V (main_arg3 : DevRef τ sig) = V (main_arg3 : DevRef τ sig) := by
  after_results_simp

set_option maxRecDepth 8192 in
theorem arg4_eq (V : Valuation τ sig (Elt Ideal)) :
    after ops V (main_arg4 : DevRef τ sig) = V (main_arg4 : DevRef τ sig) := by
  after_results_simp

set_option maxRecDepth 8192 in
theorem arg5_eq (V : Valuation τ sig (Elt Ideal)) :
    after ops V (main_arg5 : DevRef τ sig) = V (main_arg5 : DevRef τ sig) := by
  after_results_simp

set_option maxRecDepth 8192 in
theorem arg6_eq (V : Valuation τ sig (Elt Ideal)) :
    after ops V (main_arg6 : DevRef τ sig) = V (main_arg6 : DevRef τ sig) := by
  after_results_simp

/-- On every device, from any memory with zero counters: every weakly fair execution of @main terminates with the result
    buffer at the two layers over their neighbour sums, and the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47)
          = layer (segSum (layer (segSum (m ((c.tc : Thread nD τ).loc main_arg0)) (m ((c.tc : Thread nD τ).loc main_arg1)) (m ((c.tc : Thread nD τ).loc main_arg2)))
                (invDeg (m ((c.tc : Thread nD τ).loc main_arg2))) (m ((c.tc : Thread nD τ).loc main_arg3)) (m ((c.tc : Thread nD τ).loc main_arg4)))
              (m ((c.tc : Thread nD τ).loc main_arg1)) (m ((c.tc : Thread nD τ).loc main_arg2)))
            (invDeg (m ((c.tc : Thread nD τ).loc main_arg2))) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v47).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefValue

end
-- ==== Proof.KernelSpec.lean ====
/-
  The kernel program's result in the specification's words.

  A pallas call takes the bias as a one-row matrix; row 0 of the recast bias vector is the vector itself, so the layer a call
  computes is the specification's layer of the bias vector. The result is then the specification's layer applied twice, each
  time to the neighbour sum of what came before.
-/
import proofs.«124720_j64725157151108_2_alg».proof.Proof.KernelValue
import Idealize.ShloMosaic.Lib.ValueLayout

noncomputable section

namespace Cert.KernelIdeal.KerValue

open Cert.KernelIdeal Cert.KernelIdeal.DenseBlocks Idealize.ShloMosaic Idealize.ShloMosaic.ValueIdx

/-- Entry (0, f) of the bias row is entry f of the bias vector. -/
theorem biasRow_row (b : (⟨S64, .f32⟩ : BufTy).Contents (Elt Ideal)) :
    (fun i : S64.Idx => biasRow b (ix2 (0 : Fin 1) (i 0))) = b := by
  funext i
  obtain ⟨f, rfl⟩ : ∃ f : Fin 64, i = ix1 f := ⟨i 0, eq_ix1 i⟩
  show shapeCast S1x64 b Cert.KernelIdeal.Gen.shapeCasts_S64_S1x64 (ix2 (0 : Fin 1) f) = b (ix1 f)
  exact shapeCast_a_1a_apply b _ (0 : Fin 1) f

/-- The layer a pallas call computes from the bias row is the specification's layer of the bias vector. -/
theorem layerOf_biasRow (A : S100000x64.Idx → EReal) (inv : S100000x1.Idx → EReal) (W : S64x64.Idx → EReal)
    (b : (⟨S64, .f32⟩ : BufTy).Contents (Elt Ideal)) :
    layerOf A inv W (biasRow b) = Cert.GcnSpec.dense A inv W b := by
  unfold layerOf
  rw [biasRow_row]

/-- The result: two specification layers over neighbour sums. -/
theorem result_eq (h : (⟨S100000x64, .f32⟩ : BufTy).Contents (Elt Ideal)) (src dst : (⟨S1600000, .i32⟩ : BufTy).Contents (Elt Ideal))
    (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) :
    result h src dst W1 b1 W2 b2
      = Cert.GcnSpec.dense (segSum (Cert.GcnSpec.dense (segSum h src dst) (invDeg dst) W1 b1) src dst) (invDeg dst) W2 b2 := by
  unfold result
  rw [layerOf_biasRow, layerOf_biasRow]

end Cert.KernelIdeal.KerValue

end
-- ==== Proof.LibDenseLayer.lean ====
/-
  A host-side dense layer read at an entry, on the extended reals.

  jnp's  x @ W + b  lowers to a dot_general, the bias vector broadcast to a one-row matrix and then down the rows, and an
  add; a relu lowers to a maximum against the zero scalar broadcast to the whole shape. Read at entry (e, k):
  the broadcast bias is b[k] whatever the row; the zero splat is the extended real 0; the layer is Σ_j x[e,j]·W[j,k] + b[k].
-/
import Idealize.ShloMosaic.PureOps.Ideal.Laws
import Idealize.ShloMosaic.Lib.ValueIdx
import Idealize.ShloMosaic.Lib.Pipeline.Value
import proofs.«124720_j64725157151108_2_alg».proof.Proof.LibDotInnerHost

noncomputable section

open scoped BigOperators

namespace Idealize.ShloMosaic.DenseLayer

open Idealize.ShloMosaic Idealize.ShloMosaic.ValueIdx Idealize.ShloMosaic.DotInner

variable {n d h : ℕ}

/-- A vector broadcast to one row and then down n rows reads, at (e, k), the vector at k. -/
theorem bias_apply (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    broadcastInDim ⟨2, ![n, h]⟩ ![0, 1] h2 (broadcastInDim ⟨2, ![1, h]⟩ ![1] h1 b) (ix2 e k) = b (ix1 k) := by
  rw [broadcastInDim_apply ![0, 1] h2 _ (ix2 e k) (ix2 (0 : Fin 1) k) (fun a => by
        match a with
        | ⟨0, _⟩ => rfl
        | ⟨1, _⟩ =>
          show k.val = if h = 1 then 0 else k.val
          split
          · have := k.isLt; omega
          · rfl)]
  exact broadcastInDim_apply ![1] h1 b (ix2 (0 : Fin 1) k) (ix1 k) (fun a => by
        match a with
        | ⟨0, _⟩ =>
          show k.val = if h = 1 then 0 else k.val
          split
          · have := k.isLt; omega
          · rfl)

/-- The zero scalar broadcast to a whole shape reads the extended real 0 everywhere. -/
theorem zero_splat_apply {t : Shape} (h0 : (⟨0, ![]⟩ : Shape).BroadcastsInDim t ![]) (i : t.Idx) :
    broadcastInDim t ![] h0 (constant (F := Ideal) ⟨0, ![]⟩ .f32 0x00000000#32) i = 0 := by
  rw [broadcastInDim_apply ![] h0 _ i ix0 (fun a => a.elim0), constant_apply]
  exact Ideal.ofBits_zero_f32

/-- THE LAYER: a rows-by-columns host product plus the broadcast bias, at entry (e, k). -/
theorem dense_apply {D : DotDims ⟨2, ![n, d]⟩ ⟨2, ![d, h]⟩ ⟨2, ![n, h]⟩} (hD : Plain D)
    (x : (⟨2, ![n, d]⟩ : Shape).Idx → EReal) (W : (⟨2, ![d, h]⟩ : Shape).Idx → EReal) (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    addf (F := Ideal) (φ := .f32) (Host.dotGeneral (F := Ideal) (φ₁ := .f32) (φ₂ := .f32) D none x W)
        (broadcastInDim ⟨2, ![n, h]⟩ ![0, 1] h2 (broadcastInDim ⟨2, ![1, h]⟩ ![1] h1 b)) (ix2 e k)
      = (∑ j : Fin d, x (ix2 e j) * W (ix2 j k)) + b (ix1 k) := by
  rw [addf_apply, hD.dotGeneral, bias_apply]

end Idealize.ShloMosaic.DenseLayer

end
-- ==== Proof.ReferenceLayer.lean ====
/-
  One layer of the reference read at an entry, and that it is the layer of the specification.

  The layer is  elu((A * inv) @ W.T + b)  on [100000, 64]. At node p and output feature f:
    the column inv broadcast along the rows reads inv[p, 0] at every (p, k), so the scaled input at (p, k) is A[p, k] · inv[p, 0];
    the transposed weights read W[f, k] at (k, f);
    the rows-by-columns product contracts over k, and the bias broadcast down the rows adds b[f];
  so the value before the activation is  Σ_k (A[p, k] · inv[p, 0]) · W[f, k] + b[f].
  The activation is ELU in its guarded spelling  where(y > 0, y, 1 · expm1(where(y > 0, 0, y)))  taken entrywise, which is
  elu y: where the test holds the first branch is taken, and where it fails the guarded argument is y itself.
-/
import proofs.«124720_j64725157151108_2_alg».proof.Proof.ReferenceRun
import proofs.«124720_j64725157151108_2_alg».proof.Proof.DenseSpec
import proofs.«124720_j64725157151108_2_alg».proof.Proof.LibDenseLayer
import Idealize.ShloMosaic.Lib.ValueLayout

noncomputable section

open scoped BigOperators

namespace Cert.ReferenceIdeal.RefValue

open Cert.ReferenceIdeal Cert.ReferenceIdeal.Gen Idealize.ShloMosaic Idealize.ShloMosaic.ValueIdx

/-- The product's dimension numbers say rows by columns: the left operand's second axis against the right operand's first. -/
theorem dot_plain : DotInner.Plain dot_S100000x64_S64x64_S100000x64_1_0_0_1_n_n :=
  plain_record dot_S100000x64_S64x64_S100000x64_1_0_0_1_n_n, S100000x64, S64x64

/-- The column broadcast along the rows reads, at (p, k), the column's entry of row p. -/
theorem column_bcast_apply (inv : FVec Ideal S100000x1 .f32) (p : Fin 100000) (k : Fin 64) :
    broadcastInDim S100000x64 ![0, 1] bcast_S100000x1_S100000x64_0_1 inv (ix2 p k) = inv (ix2 p (0 : Fin 1)) :=
  broadcastInDim_apply ![0, 1] bcast_S100000x1_S100000x64_0_1 inv (ix2 p k) (ix2 p (0 : Fin 1)) fun a => by
    match a with
    | ⟨0, _⟩ => rfl
    | ⟨1, _⟩ => rfl

/-- The value before the activation at (p, f): Σ_k (A[p, k] · inv[p, 0]) · W[f, k] + b[f]. -/
theorem affine_apply (A : FVec Ideal S100000x64 .f32) (inv : FVec Ideal S100000x1 .f32) (W : FVec Ideal S64x64 .f32)
    (b : FVec Ideal S64 .f32) (p : Fin 100000) (f : Fin 64) :
    affine A inv W b (ix2 p f)
      = (∑ k : Fin 64, (A (ix2 p k) * inv (ix2 p (0 : Fin 1))) * W (ix2 f k)) + b (ix1 f) := by
  unfold affine
  rw [DenseLayer.dense_apply dot_plain]
  refine congrArg (· + b (ix1 f)) (Finset.sum_congr rfl fun k _ => ?_)
  rw [mulf_apply, column_bcast_apply, transpose_ix2_apply]

/-- The guarded ELU at an entry is elu of the entry. -/
theorem eluGuarded_apply (y : FVec Ideal S100000x64 .f32) (i : S100000x64.Idx) :
    eluGuarded y i = Cert.GcnSpec.elu (y i) :=
  Cert.GcnSpec.elu_guarded (y i)

/-- THE LAYER is the specification's. -/
theorem layer_eq (A : FVec Ideal S100000x64 .f32) (inv : FVec Ideal S100000x1 .f32) (W : FVec Ideal S64x64 .f32)
    (b : FVec Ideal S64 .f32) : layer A inv W b = Cert.GcnSpec.dense A inv W b := by
  funext i
  obtain ⟨p, f, rfl⟩ : ∃ (p : Fin 100000) (f : Fin 64), i = ix2 p f := ⟨i 0, i 1, eq_ix2 i⟩
  show eluGuarded (affine A inv W b) (ix2 p f) = _
  rw [eluGuarded_apply, affine_apply]
  rfl

end Cert.ReferenceIdeal.RefValue

end
-- ==== Proof.Bridge.lean ====
/-
  The two programs compute one function.

  Both apply the same host operations to build the reciprocal in-degree column and the neighbour sums: those chains are the
  same terms. Between them each program computes one layer — the kernel program in a pallas call, the reference on the host —
  and both layers are the specification's layer. So the reference's result term is the kernel program's result function of
  the same seven arrays.
-/
import proofs.«124720_j64725157151108_2_alg».proof.Proof.KernelSpec
import proofs.«124720_j64725157151108_2_alg».proof.Proof.ReferenceLayer

noncomputable section

namespace Cert.Proof.Bridge

open Idealize.ShloMosaic

/-- The reciprocal in-degree column is built by the same operations in both programs. -/
theorem invDeg_eq (dst : (⟨Cert.KernelIdeal.S1600000, .i32⟩ : BufTy).Contents (Elt Ideal)) :
    Cert.ReferenceIdeal.RefValue.invDeg dst = Cert.KernelIdeal.KerValue.invDeg dst := rfl

/-- The neighbour sum is built by the same operations in both programs. -/
theorem segSum_eq (x : (⟨Cert.KernelIdeal.S100000x64, .f32⟩ : BufTy).Contents (Elt Ideal)) (src dst : (⟨Cert.KernelIdeal.S1600000, .i32⟩ : BufTy).Contents (Elt Ideal)) :
    Cert.ReferenceIdeal.RefValue.segSum x src dst = Cert.KernelIdeal.KerValue.segSum x src dst := rfl

/-- The reference's result term is the kernel program's result function. -/
theorem result_eq (h : (⟨Cert.KernelIdeal.S100000x64, .f32⟩ : BufTy).Contents (Elt Ideal)) (src dst : (⟨Cert.KernelIdeal.S1600000, .i32⟩ : BufTy).Contents (Elt Ideal))
    (W1 : (⟨Cert.KernelIdeal.S64x64, .f32⟩ : BufTy).Contents (Elt Ideal)) (b1 : (⟨Cert.KernelIdeal.S64, .f32⟩ : BufTy).Contents (Elt Ideal))
    (W2 : (⟨Cert.KernelIdeal.S64x64, .f32⟩ : BufTy).Contents (Elt Ideal)) (b2 : (⟨Cert.KernelIdeal.S64, .f32⟩ : BufTy).Contents (Elt Ideal)) :
    Cert.ReferenceIdeal.RefValue.layer (Cert.ReferenceIdeal.RefValue.segSum (Cert.ReferenceIdeal.RefValue.layer (Cert.ReferenceIdeal.RefValue.segSum h src dst) (Cert.ReferenceIdeal.RefValue.invDeg dst) W1 b1) src dst)
        (Cert.ReferenceIdeal.RefValue.invDeg dst) W2 b2
      = Cert.KernelIdeal.KerValue.result h src dst W1 b1 W2 b2 := by
  rw [Cert.KernelIdeal.KerValue.result_eq, Cert.ReferenceIdeal.RefValue.layer_eq, Cert.ReferenceIdeal.RefValue.layer_eq, invDeg_eq, segSum_eq, segSum_eq]

end Cert.Proof.Bridge

end
-- ==== Proof.lean ====
/-
  The certificate: a two-layer graph network (mean aggregation over incoming edges, a dense layer, ELU) whose dense layers run
  as pallas calls, against the same network written in jnp.

  Frames. The word-level and the idealized kernel programs terminate without a fault and leave their arguments unchanged:
  the generated frames. The reference is a host program; its run is written out operation by operation, and the frame is that
  run with the result forgotten.

  The idealization rewrote no operation, so it has nothing to preserve.

  Equal results on the extended reals. The kernel program's result buffer ends at the two-layer function of the launch
  contents of its arguments (each pallas call leaves the layer of the arrays it was entered with; the host stretches between
  are the neighbour sums). The reference's ends at its own composed term of its arguments. From memories that agree on the
  arguments the two are one function: the host chains are the same operations, and both layers are
  elu(Σ_k (A[p,k] · inv[p,0]) · W[f,k] + b[f]), the reference's ELU being the guarded e^z − 1 form of the same function. No
  finiteness of the inputs is used.
-/
import proofs.«124720_j64725157151108_2_alg».proof.Defs
import proofs.«124720_j64725157151108_2_alg».proof.Proof.Gen.Kernel
import proofs.«124720_j64725157151108_2_alg».proof.Proof.Gen.Kernel.Frame
import proofs.«124720_j64725157151108_2_alg».proof.Proof.Gen.KernelIdeal
import proofs.«124720_j64725157151108_2_alg».proof.Proof.Gen.KernelIdeal.Frame
import proofs.«124720_j64725157151108_2_alg».proof.Proof.Gen.ReferenceIdeal
import proofs.«124720_j64725157151108_2_alg».proof.Proof.Gen.Pre_finite_inputs
import proofs.«124720_j64725157151108_2_alg».proof.Proof.KernelRun
import proofs.«124720_j64725157151108_2_alg».proof.Proof.KernelValue
import proofs.«124720_j64725157151108_2_alg».proof.Proof.ReferenceRun
import proofs.«124720_j64725157151108_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result forgotten. -/
theorem frame_reference : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both idealized programs end with the two-layer function of the shared arguments in their result buffers. -/
theorem algebraic : Cert.algebraic_KernelIdeal_ReferenceIdeal := by
  intro m ρ m' ρ' _ hagree
  refine ⟨fun c => Cert.KernelIdeal.KerValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KerValue.last_out m ρ c), (h c).2⟩) (Cert.KernelIdeal.KerRun.run_last m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6⟩ := hagree c
    rw [e0, e1, e2, e3, e4, e5, e6]
    exact Cert.Proof.Bridge.result_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
